-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 68
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S50000x128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S_, .f32⟩
  | 67 => ⟨S50000x1, .f32⟩
  | 68 => ⟨S50000x1, .f32⟩
  | 69 => ⟨S50000x1, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1x800000, .i32⟩
  | 83 => ⟨S800000, .i32⟩
  | 84 => ⟨S1x800000, .i32⟩
  | 85 => ⟨S800000, .i32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S128x128, .f32⟩
  | 112 => ⟨S50000x128, .f32⟩
  | 113 => ⟨S1x128, .f32⟩
  | 114 => ⟨S50000x128, .f32⟩
  | 115 => ⟨S50000x128, .f32⟩
  | 116 => ⟨S128x128, .f32⟩
  | 117 => ⟨S50000x128, .f32⟩
  | 118 => ⟨S50000x128, .f32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S_, .f32⟩
  | 9 => ⟨S50000x1, .f32⟩
  | 10 => ⟨S50000x1, .f32⟩
  | 11 => ⟨S50000x1, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call0_cst : Ref sig .tc := ⟨.hbm, 78, rfl⟩
abbrev main_call0_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_9 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageRow.lean ====
/-
  One row of a mean-aggregation graph layer with layer normalisation, over the extended reals.

  For a node with aggregated neighbour features `a` and own features `x` (both of width 128), weight matrices
  `Wl`, `Wr` kept one ROW per output feature, a bias `bl`, a scale `g` and a shift `be`:
    dense q   = Σ_k a k · Wl(q,k) + Σ_k x k · Wr(q,k) + bl q
    mean h    = (Σ_c h c) / 128
    normRow h q  = (h q − mean h) · rsqrt(mean ((h − mean h)²) + ε) · g q + be q
    layerRow  = (normRow (dense), rectified or not) + x q           -- the residual connection
  The quotient is the extended reals' own (`Ideal.div`), `rsqrt` its total extension, and 128, ε, 0 are the f32
  words the programs print, never evaluated. Two laws join the two spellings of the layer: the sum of three terms may
  take the bias second or last, and a product with the reciprocal of `max s 1` is the quotient by `max s 1`.
-/
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- The f32 word of 128, the width of a row. -/
abbrev w128 : EReal := Ideal.ofBits .f32 0x43000000#32
/-- The f32 word of the variance's guard ε. -/
abbrev wEps : EReal := Ideal.ofBits .f32 0x3727C5AC#32
/-- The f32 word of zero, the rectifier's threshold. -/
abbrev wZero : EReal := Ideal.ofBits .f32 0x00000000#32

/-- The two linear maps and the bias, feature `q` of one node. -/
def dense (a x : Fin 128 → EReal) (Wl Wr : FVec Ideal ⟨2, ![128, 128]⟩ .f32) (bl : Fin 128 → EReal) (q : Fin 128) : EReal :=
  (∑ k : Fin 128, a k * Wl (ix2 q k)) + (∑ k : Fin 128, x k * Wr (ix2 q k)) + bl q

/-- The mean of a row of 128 entries. -/
def mean (h : Fin 128 → EReal) : EReal := Ideal.div (∑ c : Fin 128, h c) w128

/-- Layer normalisation of a row, scaled and shifted, at feature `q`. -/
def normRow (h g be : Fin 128 → EReal) (q : Fin 128) : EReal :=
  (h q - mean h) * Ideal.rsqrt (mean (fun c => (h c - mean h) * (h c - mean h)) + wEps) * g q + be q

/-- One node's row of the layer: dense, normalised, rectified when `relu`, plus the node's own features. -/
def layerRow (relu : Bool) (a x : Fin 128 → EReal) (Wl Wr : FVec Ideal ⟨2, ![128, 128]⟩ .f32)
    (bl g be : Fin 128 → EReal) (q : Fin 128) : EReal :=
  (bif relu then max (normRow (dense a x Wl Wr bl) g be q) wZero else normRow (dense a x Wl Wr bl) g be q) + x q

/-- The layer on all `A` nodes at once: entry `(r, q)` is node `r`'s row at feature `q`; it reads row `r` of the
    aggregated and of the own features and nothing else of them. -/
def layer (relu : Bool) {A : Nat} (a x : FVec Ideal ⟨2, ![A, 128]⟩ .f32) (Wl Wr : FVec Ideal ⟨2, ![128, 128]⟩ .f32)
    (bl g be : Fin 128 → EReal) : FVec Ideal ⟨2, ![A, 128]⟩ .f32 :=
  fun i => layerRow relu (fun k => a (ix2 (i 0) k)) (fun k => x (ix2 (i 0) k)) Wl Wr bl g be (i 1)

theorem layer_ix2 (relu : Bool) {A : Nat} (a x : FVec Ideal ⟨2, ![A, 128]⟩ .f32) (Wl Wr : FVec Ideal ⟨2, ![128, 128]⟩ .f32)
    (bl g be : Fin 128 → EReal) (r : Fin A) (q : Fin 128) :
    layer relu a x Wl Wr bl g be (ix2 r q)
      = layerRow relu (fun k => a (ix2 r k)) (fun k => x (ix2 r k)) Wl Wr bl g be q := rfl

/-- The dense part with the bias added before the second product: the same sum of three terms. -/
theorem dense_bias_second (a x : Fin 128 → EReal) (Wl Wr : FVec Ideal ⟨2, ![128, 128]⟩ .f32) (bl : Fin 128 → EReal) (q : Fin 128) :
    (∑ k : Fin 128, a k * Wl (ix2 q k)) + bl q + (∑ k : Fin 128, x k * Wr (ix2 q k)) = dense a x Wl Wr bl q :=
  add_right_comm _ _ _

/-- A product with the reciprocal of `max s 1` is the quotient by `max s 1`, on all extended reals: the divisor is at
    least one, so never zero, and off zero the quotient is the product with the inverse. -/
theorem mul_recip_max (y s : EReal) :
    y * Ideal.div (Ideal.ofBits .f32 0x3F800000#32) (max s (Ideal.ofBits .f32 0x3F800000#32))
      = Ideal.div y (max s (Ideal.ofBits .f32 0x3F800000#32)) := by
  rw [Ideal.ofBits_one_f32]
  have h : max s (1 : EReal) ≠ 0 := ne_of_gt (lt_of_lt_of_le zero_lt_one (le_max_right s 1))
  simp only [Ideal.div, if_neg h, one_mul]

end Cert.Sage

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«144361_j6399501271360_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.KBody.lean ====
/-
  The two kernel bodies at one entry, over the extended reals.

  Each body receives a block of 5000 nodes: the aggregated neighbour features, the nodes' own features, the two weight
  matrices and three rows (bias, scale, shift) of shape [1, 128]. Entry (p, q) of what it stores is node p's row of the
  layer (SageRow.lean) at feature q: the two products on the matrix unit are taken into zero accumulators against the
  transposed weights, so they are Σ_k a(p,k)·Wl(q,k) and Σ_k x(p,k)·Wr(q,k) (a change of float format is the identity);
  each mean is a sum along the row kept as a column, divided by 128 and broadcast back; the rows [1, 128] are repeated
  down the block. The first body rectifies before adding the own features, the second does not.
-/
import proofs.«144361_j6399501271360_1_alg».proof.Proof.Gen.KernelIdeal.Skeleton
import proofs.«144361_j6399501271360_1_alg».proof.Proof.SageRow
import proofs.«144361_j6399501271360_1_alg».proof.Proof.LibPlainDot
import proofs.«144361_j6399501271360_1_alg».proof.Proof.LibColumn
import proofs.«144361_j6399501271360_1_alg».proof.Proof.LibRowReduce
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Sage

/-- The printed contraction is the plain one: rows of the left operand against columns of the right. -/
theorem dot_plain : dot_S5000x128_S128x128_S5000x128_1_0_0_1_n_n = DotDims.plain 5000 128 128 := rfl

/-- The reciprocal square root of an array, at an index. -/
theorem rsqrt_apply {s : Shape} {φ : FTy} (a : FVec Ideal s φ) (i : s.Idx) : rsqrt a i = Ideal.rsqrt (a i) := rfl

/-- A body's dense part on its block: the two products into zero accumulators and the bias row repeated down the block. -/
def kDense (a x : FVec Ideal S5000x128 .f32) (Wl Wr : FVec Ideal S128x128 .f32) (bl : FVec Ideal S1x128 .f32) :
    FVec Ideal S5000x128 .f32 :=
  addf (addf (matmul dot_S5000x128_S128x128_S5000x128_1_0_0_1_n_n none (truncf .bf16 a bitsLt_bf16_f32)
        (transpose S128x128 [1, 0] (truncf .bf16 Wl bitsLt_bf16_f32) transposes_S128x128_p1_0_S128x128)
        (constant S5000x128 .f32 0x00000000#32))
      (matmul dot_S5000x128_S128x128_S5000x128_1_0_0_1_n_n none (truncf .bf16 x bitsLt_bf16_f32)
        (transpose S128x128 [1, 0] (truncf .bf16 Wr bitsLt_bf16_f32) transposes_S128x128_p1_0_S128x128)
        (constant S5000x128 .f32 0x00000000#32)))
    (broadcastTo S5000x128 bl broadcasts_S1x128_S5000x128)

/-- A body's mean along each row of its block, kept as a column. -/
def kMean (h : FVec Ideal S5000x128 .f32) : FVec Ideal S5000x1 .f32 :=
  divf (shapeCast S5000x1 (multiReduction .add [1] S5000 h 0x00000000#32 reduces_S5000x128_S5000 (.inl rfl) rfl)
      shapeCasts_S5000_S5000x1)
    (broadcast S5000x1 (Scalar.ofBits .f32 0x43000000#32))

/-- A body's layer normalisation of its dense part, scaled and shifted by the rows. -/
def kNorm (h : FVec Ideal S5000x128 .f32) (g be : FVec Ideal S1x128 .f32) : FVec Ideal S5000x128 .f32 :=
  addf (mulf (mulf (subf h (broadcastTo S5000x128 (kMean h) broadcasts_S5000x1_S5000x128))
        (broadcastTo S5000x128
          (rsqrt (addf (kMean (mulf (subf h (broadcastTo S5000x128 (kMean h) broadcasts_S5000x1_S5000x128))
                (subf h (broadcastTo S5000x128 (kMean h) broadcasts_S5000x1_S5000x128))))
            (broadcast S5000x1 (Scalar.ofBits .f32 0x3727C5AC#32))))
          broadcasts_S5000x1_S5000x128))
      (broadcastTo S5000x128 g broadcasts_S1x128_S5000x128))
    (broadcastTo S5000x128 be broadcasts_S1x128_S5000x128)

/-- The first body is these parts, rectified, plus the own features (its casts of a block to its own shape dropped). -/
theorem pay0_eq (x0 x1 : Vec Ideal S5000x128 .f32) (x2 x4 : Vec Ideal S128x128 .f32) (x3 x5 x6 : Vec Ideal S1x128 .f32) :
    k0_pay1 (F := Ideal) (k0_pay2 (F := Ideal) x0 x1 x2 x4 x3 x5) x6 x1
      = addf (maximumf (kNorm (kDense x0 x1 x2 x4 x3) x5 x6) (broadcast S5000x128 (Scalar.ofBits .f32 0x00000000#32))) x1 := by
  unfold k0_pay1 k0_pay2 kNorm kMean kDense
  simp only [shapeCast_self]

/-- The second body is these parts plus the own features. -/
theorem pay1_eq (x0 x1 : Vec Ideal S5000x128 .f32) (x2 x4 : Vec Ideal S128x128 .f32) (x3 x5 x6 : Vec Ideal S1x128 .f32) :
    k1_pay1 (F := Ideal) (k1_pay2 (F := Ideal) x0 x1 x2 x4 x3 x5) x6 x1
      = addf (kNorm (kDense x0 x1 x2 x4 x3) x5 x6) x1 := by
  unfold k1_pay1 k1_pay2 kNorm kMean kDense
  simp only [shapeCast_self]

/-- A product on the matrix unit into the zero accumulator by the transposed weights: row p of the left operand against
    row q of the weights. -/
theorem dot_apply (l : FVec Ideal S5000x128 .bf16) (W : FVec Ideal S128x128 .bf16) (p : Fin 5000) (q : Fin 128) :
    matmul dot_S5000x128_S128x128_S5000x128_1_0_0_1_n_n none l
        (transpose S128x128 [1, 0] W transposes_S128x128_p1_0_S128x128) (constant S5000x128 .f32 0x00000000#32) (ix2 p q)
      = ∑ k : Fin 128, l (ix2 p k) * W (ix2 q k) := by
  rw [dot_plain]
  exact (PlainDot.matmul_apply_ix2 none l _ p q).trans
    (Finset.sum_congr rfl fun k _ => congrArg (l (ix2 p k) * ·) (RowReduce.transpose_10_apply W _ k q))

theorem kDense_apply (a x : FVec Ideal S5000x128 .f32) (Wl Wr : FVec Ideal S128x128 .f32) (bl : FVec Ideal S1x128 .f32)
    (p : Fin 5000) (q : Fin 128) :
    kDense a x Wl Wr bl (ix2 p q)
      = dense (fun k => a (ix2 p k)) (fun k => x (ix2 p k)) Wl Wr (fun k => bl (ix2 (0 : Fin 1) k)) q := by
  unfold kDense dense
  rw [addf_apply, addf_apply, dot_apply, dot_apply, broadcastTo_1b_ab_apply]
  rfl

theorem kMean_apply (h : FVec Ideal S5000x128 .f32) (p : Fin 5000) (u : Fin 1) :
    kMean h (ix2 p u) = mean (fun c => h (ix2 p c)) := by
  unfold kMean mean
  rw [divf_apply, Column.shapeCast_a_a1_apply]
  exact congrArg (fun t => Ideal.div t w128) (RowReduce.multiReduction_add_cols h _ _ _ _ p)

theorem kNorm_apply (h : FVec Ideal S5000x128 .f32) (g be : FVec Ideal S1x128 .f32) (p : Fin 5000) (q : Fin 128) :
    kNorm h g be (ix2 p q)
      = normRow (fun c => h (ix2 p c)) (fun k => g (ix2 (0 : Fin 1) k)) (fun k => be (ix2 (0 : Fin 1) k)) q := by
  unfold kNorm normRow
  simp only [addf_apply, mulf_apply, subf_apply, rsqrt_apply, Column.broadcastTo_a1_ab_apply, broadcastTo_1b_ab_apply,
    kMean_apply, broadcast_apply, Scalar.ofBits, Ideal.ofBits_def]

/-- The first body (rectified) at entry (p, q). -/
theorem pay0_apply (x0 x1 : Vec Ideal S5000x128 .f32) (x2 x4 : Vec Ideal S128x128 .f32) (x3 x5 x6 : Vec Ideal S1x128 .f32)
    (p : Fin 5000) (q : Fin 128) :
    k0_pay1 (F := Ideal) (k0_pay2 (F := Ideal) x0 x1 x2 x4 x3 x5) x6 x1 (ix2 p q)
      = layerRow true (fun k => x0 (ix2 p k)) (fun k => x1 (ix2 p k)) x2 x4
          (fun k => x3 (ix2 (0 : Fin 1) k)) (fun k => x5 (ix2 (0 : Fin 1) k)) (fun k => x6 (ix2 (0 : Fin 1) k)) q := by
  rw [pay0_eq]
  unfold layerRow
  simp only [addf_apply, maximumf_apply, kNorm_apply, kDense_apply, broadcast_apply, Scalar.ofBits, Ideal.ofBits_def, cond_true]

/-- The second body (not rectified) at entry (p, q). -/
theorem pay1_apply (x0 x1 : Vec Ideal S5000x128 .f32) (x2 x4 : Vec Ideal S128x128 .f32) (x3 x5 x6 : Vec Ideal S1x128 .f32)
    (p : Fin 5000) (q : Fin 128) :
    k1_pay1 (F := Ideal) (k1_pay2 (F := Ideal) x0 x1 x2 x4 x3 x5) x6 x1 (ix2 p q)
      = layerRow false (fun k => x0 (ix2 p k)) (fun k => x1 (ix2 p k)) x2 x4
          (fun k => x3 (ix2 (0 : Fin 1) k)) (fun k => x5 (ix2 (0 : Fin 1) k)) (fun k => x6 (ix2 (0 : Fin 1) k)) q := by
  rw [pay1_eq]
  unfold layerRow
  simp only [addf_apply, kNorm_apply, kDense_apply, cond_false]

end Cert.KernelIdeal.Body

end
-- ==== Proof.KRegion.lean ====
/-
  Each of the two regions, as one function of the arrays it finds when it is entered.

  A region runs its body at ten grid points; point t reads rows 5000·t … 5000·t + 4999 of the aggregated and of the own
  features, the whole weight matrices and the whole rows, and writes back rows 5000·t … of the output. The body's
  entry (p, q) is node (5000·t + p)'s row of the layer at feature q (KBody.lean), and a node's row of the layer reads
  only that node's rows of the inputs; so the block written at point t is block t of the layer applied to the whole
  arrays, the ten blocks cover all 50000 nodes, and the output array ends as the layer of the arrays found.
-/
import proofs.«144361_j6399501271360_1_alg».proof.Proof.Gen.KernelIdeal.Frame
import proofs.«144361_j6399501271360_1_alg».proof.Proof.KBody
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx Idealize.ShloMosaic.TcCoe
open Idealize.SL.Sem Idealize.ShloMosaic.Pipeline Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its ten grid points: the three row windows (aggregated features, own
    features, output) move down the nodes with the point; the weights and the rows stay whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem pt_lt0 (t : Fin cfg0.N) : t.val < 10 := lt_of_lt_of_eq t.isLt N_0

/-- Row p of point t's block of the aggregated features is node 5000·t + p. -/
theorem blk0_0 (c : Dev nD) (t : Fin cfg0.N) (p : Fin 5000) (k : Fin 128) :
    iblk0 V c 0 t (ix2 p k) = (V c main_v24 : S50000x128.Idx → EReal) (ix2 ⟨t.val * 5000 + p.val, by have := pt_lt0 t; omega⟩ k) := by
  show (V c main_v24 : S50000x128.Idx → EReal) (((cfg0.win 0).blk t).view.emb (ix2 p k)) = _
  refine congrArg _ (funext fun a => Fin.ext ?_)
  obtain ⟨e0, e1, -⟩ := idx_facts0 t
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of point t's block of the own features is node 5000·t + p. -/
theorem blk0_1 (c : Dev nD) (t : Fin cfg0.N) (p : Fin 5000) (k : Fin 128) :
    iblk0 V c 1 t (ix2 p k) = (V c main_arg0 : S50000x128.Idx → EReal) (ix2 ⟨t.val * 5000 + p.val, by have := pt_lt0 t; omega⟩ k) := by
  show (V c main_arg0 : S50000x128.Idx → EReal) (((cfg0.win 1).blk t).view.emb (ix2 p k)) = _
  refine congrArg _ (funext fun a => Fin.ext ?_)
  obtain ⟨-, -, e0, e1, -⟩ := idx_facts0 t
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix's block is the whole matrix at every point. -/
theorem blk0_2 (c : Dev nD) (t : Fin cfg0.N) : iblk0 V c 2 t = (V c main_arg2 : S128x128.Idx → EReal) := by
  funext y
  show (V c main_arg2 : S128x128.Idx → EReal) (((cfg0.win 2).blk t).view.emb y) = _
  refine congrArg _ (funext fun a => Fin.ext ?_)
  obtain ⟨-, -, -, -, -, -, e0, e1, -⟩ := idx_facts0 t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the whole row. -/
theorem blk0_3 (c : Dev nD) (t : Fin cfg0.N) : iblk0 V c 3 t = (V c main_v25 : S1x128.Idx → EReal) := by
  funext y
  show (V c main_v25 : S1x128.Idx → EReal) (((cfg0.win 3).blk t).view.emb y) = _
  refine congrArg _ (funext fun a => Fin.ext ?_)
  obtain ⟨-, -, -, -, -, -, -, -, e0, e1, -⟩ := idx_facts0 t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's block is the whole matrix. -/
theorem blk0_4 (c : Dev nD) (t : Fin cfg0.N) : iblk0 V c 4 t = (V c main_arg4 : S128x128.Idx → EReal) := by
  funext y
  show (V c main_arg4 : S128x128.Idx → EReal) (((cfg0.win 4).blk t).view.emb y) = _
  refine congrArg _ (funext fun a => Fin.ext ?_)
  obtain ⟨-, -, -, -, -, -, -, -, -, -, e0, e1, -⟩ := idx_facts0 t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The scale row's block is the whole row. -/
theorem blk0_5 (c : Dev nD) (t : Fin cfg0.N) : iblk0 V c 5 t = (V c main_v26 : S1x128.Idx → EReal) := by
  funext y
  show (V c main_v26 : S1x128.Idx → EReal) (((cfg0.win 5).blk t).view.emb y) = _
  refine congrArg _ (funext fun a => Fin.ext ?_)
  obtain ⟨-, -, -, -, -, -, -, -, -, -, -, -, e0, e1, -⟩ := idx_facts0 t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The shift row's block is the whole row. -/
theorem blk0_6 (c : Dev nD) (t : Fin cfg0.N) : iblk0 V c 6 t = (V c main_v27 : S1x128.Idx → EReal) := by
  funext y
  show (V c main_v27 : S1x128.Idx → EReal) (((cfg0.win 6).blk t).view.emb y) = _
  refine congrArg _ (funext fun a => Fin.ext ?_)
  obtain ⟨-, -, -, -, -, -, -, -, -, -, -, -, -, -, e0, e1⟩ := idx_facts0 t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Entry (p, q) of point t's output block sits at node 5000·t + p, feature q, of the output array. -/
theorem emb0_7 (t : Fin cfg0.N) (p : Fin 5000) (q : Fin 128) :
    ((cfg0.win 7).blk t).view.emb (ix2 p q) = (ix2 ⟨t.val * 5000 + p.val, by have := pt_lt0 t; omega⟩ q : S50000x128.Idx) := by
  refine funext fun a => Fin.ext ?_
  obtain ⟨-, -, -, -, e0, e1, -⟩ := idx_facts0 t
  match a with
  | ⟨0, _⟩ => show win0_7.index t (0 : Fin 2) * 5000 + 1 * p.val = t.val * 5000 + p.val; omega
  | ⟨1, _⟩ => show win0_7.index t (1 : Fin 2) * 128 + 1 * q.val = q.val; omega

/-- The layer of region 0 as one function of the arrays the region finds. -/
def L0 (c : Dev nD) : S50000x128.Idx → EReal :=
  layer true (A := 50000) (V c main_v24 : S50000x128.Idx → EReal) (V c main_arg0 : S50000x128.Idx → EReal)
    (V c main_arg2 : S128x128.Idx → EReal) (V c main_arg4 : S128x128.Idx → EReal)
    (fun k => (V c main_v25 : S1x128.Idx → EReal) (ix2 (0 : Fin 1) k)) (fun k => (V c main_v26 : S1x128.Idx → EReal) (ix2 (0 : Fin 1) k))
    (fun k => (V c main_v27 : S1x128.Idx → EReal) (ix2 (0 : Fin 1) k))

/-- What point t writes back is block t of the layer: 5000 nodes' rows, each read off its own row of the inputs. -/
theorem flushed0_eq (c : Dev nD) (t : Fin cfg0.N) :
    (dat0 V c).flushed 7 t = ((cfg0.win 7).blk t).view.read (Elt Ideal) (L0 V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Body.pay0_apply (iblk0 V c 0 t) (iblk0 V c 1 t) (iblk0 V c 2 t) (iblk0 V c 4 t) (iblk0 V c 3 t)
    (iblk0 V c 5 t) (iblk0 V c 6 t) p q).trans ?_
  show _ = L0 V c (((cfg0.win 7).blk t).view.emb (ix2 p q))
  rw [emb0_7 t p q, blk0_2, blk0_3, blk0_4, blk0_5, blk0_6]
  unfold L0
  rw [layer_ix2]
  simp only [blk0_0, blk0_1]

/-- An index of the output array is in point t's block iff each coordinate is in the block's range. -/
theorem mem_blk0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v28).slice (win0_7.rect t)).set ↔ _
  rw [View.set_slice_whole, Rect.mem_set_unit]
  exact Iff.rfl

/-- Every node is in some point's block: node r in block r / 5000. -/
theorem cover0 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 5000, lt_of_lt_of_eq (by omega) N_0.symm⟩
  refine ⟨t, flush0_7 t, ?_⟩
  rw [mem_blk0]
  obtain ⟨-, -, -, -, e0, e1, -⟩ := idx_facts0 t
  have ht : t.val = (i 0).val / 5000 := rfl
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The output array of region 0 after its ten points: the layer of the arrays the region found. -/
theorem final0 (c : Dev nD) : (dat0 V c).arrAt 7 cfg0.N = L0 V c :=
  (dat0 V c).arrAt_eq_of_cover 7 (L0 V c) (fun t _ => flushed0_eq V c t) (cover0)

/-! ## Region 1 -/

/-- The printed index maps of region 1, decided over its ten grid points: the three row windows (aggregated features, own
    features, output) move down the nodes with the point; the weights and the rows stay whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem pt_lt1 (t : Fin cfg1.N) : t.val < 10 := lt_of_lt_of_eq t.isLt N_1

/-- Row p of point t's block of the aggregated features is node 5000·t + p. -/
theorem blk1_0 (c : Dev nD) (t : Fin cfg1.N) (p : Fin 5000) (k : Fin 128) :
    iblk1 V c 0 t (ix2 p k) = (V c main_v41 : S50000x128.Idx → EReal) (ix2 ⟨t.val * 5000 + p.val, by have := pt_lt1 t; omega⟩ k) := by
  show (V c main_v41 : S50000x128.Idx → EReal) (((cfg1.win 0).blk t).view.emb (ix2 p k)) = _
  refine congrArg _ (funext fun a => Fin.ext ?_)
  obtain ⟨e0, e1, -⟩ := idx_facts1 t
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of point t's block of the own features is node 5000·t + p. -/
theorem blk1_1 (c : Dev nD) (t : Fin cfg1.N) (p : Fin 5000) (k : Fin 128) :
    iblk1 V c 1 t (ix2 p k) = (V c main_v28 : S50000x128.Idx → EReal) (ix2 ⟨t.val * 5000 + p.val, by have := pt_lt1 t; omega⟩ k) := by
  show (V c main_v28 : S50000x128.Idx → EReal) (((cfg1.win 1).blk t).view.emb (ix2 p k)) = _
  refine congrArg _ (funext fun a => Fin.ext ?_)
  obtain ⟨-, -, e0, e1, -⟩ := idx_facts1 t
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix's block is the whole matrix at every point. -/
theorem blk1_2 (c : Dev nD) (t : Fin cfg1.N) : iblk1 V c 2 t = (V c main_arg5 : S128x128.Idx → EReal) := by
  funext y
  show (V c main_arg5 : S128x128.Idx → EReal) (((cfg1.win 2).blk t).view.emb y) = _
  refine congrArg _ (funext fun a => Fin.ext ?_)
  obtain ⟨-, -, -, -, -, -, e0, e1, -⟩ := idx_facts1 t
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block is the whole row. -/
theorem blk1_3 (c : Dev nD) (t : Fin cfg1.N) : iblk1 V c 3 t = (V c main_v42 : S1x128.Idx → EReal) := by
  funext y
  show (V c main_v42 : S1x128.Idx → EReal) (((cfg1.win 3).blk t).view.emb y) = _
  refine congrArg _ (funext fun a => Fin.ext ?_)
  obtain ⟨-, -, -, -, -, -, -, -, e0, e1, -⟩ := idx_facts1 t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's block is the whole matrix. -/
theorem blk1_4 (c : Dev nD) (t : Fin cfg1.N) : iblk1 V c 4 t = (V c main_arg7 : S128x128.Idx → EReal) := by
  funext y
  show (V c main_arg7 : S128x128.Idx → EReal) (((cfg1.win 4).blk t).view.emb y) = _
  refine congrArg _ (funext fun a => Fin.ext ?_)
  obtain ⟨-, -, -, -, -, -, -, -, -, -, e0, e1, -⟩ := idx_facts1 t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The scale row's block is the whole row. -/
theorem blk1_5 (c : Dev nD) (t : Fin cfg1.N) : iblk1 V c 5 t = (V c main_v43 : S1x128.Idx → EReal) := by
  funext y
  show (V c main_v43 : S1x128.Idx → EReal) (((cfg1.win 5).blk t).view.emb y) = _
  refine congrArg _ (funext fun a => Fin.ext ?_)
  obtain ⟨-, -, -, -, -, -, -, -, -, -, -, -, e0, e1, -⟩ := idx_facts1 t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The shift row's block is the whole row. -/
theorem blk1_6 (c : Dev nD) (t : Fin cfg1.N) : iblk1 V c 6 t = (V c main_v44 : S1x128.Idx → EReal) := by
  funext y
  show (V c main_v44 : S1x128.Idx → EReal) (((cfg1.win 6).blk t).view.emb y) = _
  refine congrArg _ (funext fun a => Fin.ext ?_)
  obtain ⟨-, -, -, -, -, -, -, -, -, -, -, -, -, -, e0, e1⟩ := idx_facts1 t
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Entry (p, q) of point t's output block sits at node 5000·t + p, feature q, of the output array. -/
theorem emb1_7 (t : Fin cfg1.N) (p : Fin 5000) (q : Fin 128) :
    ((cfg1.win 7).blk t).view.emb (ix2 p q) = (ix2 ⟨t.val * 5000 + p.val, by have := pt_lt1 t; omega⟩ q : S50000x128.Idx) := by
  refine funext fun a => Fin.ext ?_
  obtain ⟨-, -, -, -, e0, e1, -⟩ := idx_facts1 t
  match a with
  | ⟨0, _⟩ => show win1_7.index t (0 : Fin 2) * 5000 + 1 * p.val = t.val * 5000 + p.val; omega
  | ⟨1, _⟩ => show win1_7.index t (1 : Fin 2) * 128 + 1 * q.val = q.val; omega

/-- The layer of region 1 as one function of the arrays the region finds. -/
def L1 (c : Dev nD) : S50000x128.Idx → EReal :=
  layer false (A := 50000) (V c main_v41 : S50000x128.Idx → EReal) (V c main_v28 : S50000x128.Idx → EReal)
    (V c main_arg5 : S128x128.Idx → EReal) (V c main_arg7 : S128x128.Idx → EReal)
    (fun k => (V c main_v42 : S1x128.Idx → EReal) (ix2 (0 : Fin 1) k)) (fun k => (V c main_v43 : S1x128.Idx → EReal) (ix2 (0 : Fin 1) k))
    (fun k => (V c main_v44 : S1x128.Idx → EReal) (ix2 (0 : Fin 1) k))

/-- What point t writes back is block t of the layer: 5000 nodes' rows, each read off its own row of the inputs. -/
theorem flushed1_eq (c : Dev nD) (t : Fin cfg1.N) :
    (dat1 V c).flushed 7 t = ((cfg1.win 7).blk t).view.read (Elt Ideal) (L1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Body.pay1_apply (iblk1 V c 0 t) (iblk1 V c 1 t) (iblk1 V c 2 t) (iblk1 V c 4 t) (iblk1 V c 3 t)
    (iblk1 V c 5 t) (iblk1 V c 6 t) p q).trans ?_
  show _ = L1 V c (((cfg1.win 7).blk t).view.emb (ix2 p q))
  rw [emb1_7 t p q, blk1_2, blk1_3, blk1_4, blk1_5, blk1_6]
  unfold L1
  rw [layer_ix2]
  simp only [blk1_0, blk1_1]

/-- An index of the output array is in point t's block iff each coordinate is in the block's range. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v45).slice (win1_7.rect t)).set ↔ _
  rw [View.set_slice_whole, Rect.mem_set_unit]
  exact Iff.rfl

/-- Every node is in some point's block: node r in block r / 5000. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  let t : Fin cfg1.N := ⟨(i 0).val / 5000, lt_of_lt_of_eq (by omega) N_1.symm⟩
  refine ⟨t, flush1_7 t, ?_⟩
  rw [mem_blk1]
  obtain ⟨-, -, -, -, e0, e1, -⟩ := idx_facts1 t
  have ht : t.val = (i 0).val / 5000 := rfl
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The output array of region 1 after its ten points: the layer of the arrays the region found. -/
theorem final1 (c : Dev nD) : (dat1 V c).arrAt 7 cfg1.N = L1 V c :=
  (dat1 V c).arrAt_eq_of_cover 7 (L1 V c) (fun t _ => flushed1_eq V c t) (cover1)

end Cert.KernelIdeal.Region

end
-- ==== Proof.KHost.lean ====
/-
  The host operations around the two regions, read as functions of the arguments.

  Before the first region the host splits the edge list into sources and targets, counts each node's incoming edges
  (a scatter-add of ones), takes the reciprocal of max(count, 1), gathers the source rows of the node features, sums them
  into their targets and scales each node's sum by its reciprocal: `aggK`. Between the regions it does the same with
  the first region's output in place of the node features. The bias, scale and shift vectors are recast to rows.
-/
import proofs.«144361_j6399501271360_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

/-- The edges' sources. -/
def src (ei : IVec S2x800000 32) : IVec S800000 32 :=
  shapeCast _ (extractStridedSlice S1x800000 ![0, 0] ei slices_S2x800000_S1x800000_0_0) shapeCasts_S1x800000_S800000

/-- The edges' targets. -/
def dst (ei : IVec S2x800000 32) : IVec S800000 32 :=
  shapeCast _ (extractStridedSlice S1x800000 ![1, 0] ei slices_S2x800000_S1x800000_1_0) shapeCasts_S1x800000_S800000

/-- The reciprocal of each node's incoming-edge count, the count taken as at least one. -/
def invDeg (ei : IVec S2x800000 32) : FVec Ideal S50000 .f32 :=
  Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32))
        (broadcastInDim S800000x1 ![0] bcast_S800000_S800000x1_0 (dst ei))
        (broadcastInDim S800000 ![] bcast_S_S800000 (constant S_ .f32 0x3F800000#32)))
      (broadcastInDim S50000 ![] bcast_S_S50000 (constant S_ .f32 0x3F800000#32)))

/-- Each node's sum of its sources' rows of `z` (negative sources counted from the end, as the gather is printed). -/
def neighbourSum (z : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 z
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The mean of the neighbours' rows, as the kernel's host code spells it: the sum times the lifted reciprocal. -/
def aggK (z : FVec Ideal S50000x128 .f32) (s d : IVec S800000 32) (inv : FVec Ideal S50000 .f32) : FVec Ideal S50000x128 .f32 :=
  mulf (neighbourSum z s d)
    (broadcastInDim S50000x128 ![0, 1] bcast_S50000x1_S50000x128_0_1 (broadcastInDim S50000x1 ![0] bcast_S50000_S50000x1_0 inv))

variable (m : (ℓ : Loc nD τ sig) → Buf (Elt Ideal) ℓ) (ρ : Dev nD → PrngReg)

/-! ## The first stretch -/

theorem V1_v1 (c : Dev nD) : (V1 m ρ c main_v1 : S800000.Idx → BitVec 32) = src (m ((c : Thread nD τ).loc main_arg1)) := by
  dsimp only [V1, W1, hostOps0]; after_results; rfl

theorem V1_v3 (c : Dev nD) : (V1 m ρ c main_v3 : S800000.Idx → BitVec 32) = dst (m ((c : Thread nD τ).loc main_arg1)) := by
  dsimp only [V1, W1, hostOps0]; after_results; rfl

theorem V1_v11 (c : Dev nD) : (V1 m ρ c main_v11 : S50000.Idx → EReal) = invDeg (m ((c : Thread nD τ).loc main_arg1)) := by
  dsimp only [V1, W1, hostOps0]; after_results; rfl

theorem V1_v24 (c : Dev nD) : (V1 m ρ c main_v24 : S50000x128.Idx → EReal)
    = aggK (m ((c : Thread nD τ).loc main_arg0)) (src (m ((c : Thread nD τ).loc main_arg1))) (dst (m ((c : Thread nD τ).loc main_arg1)))
        (invDeg (m ((c : Thread nD τ).loc main_arg1))) := by
  dsimp only [V1, W1, hostOps0]; after_results_simp <;> rfl

theorem V1_v25 (c : Dev nD) : (V1 m ρ c main_v25 : S1x128.Idx → EReal)
    = shapeCast _ (m ((c : Thread nD τ).loc main_arg3)) shapeCasts_S128_S1x128 := by
  dsimp only [V1, W1, hostOps0]; after_results; rfl

theorem V1_v26 (c : Dev nD) : (V1 m ρ c main_v26 : S1x128.Idx → EReal)
    = shapeCast _ (m ((c : Thread nD τ).loc main_arg8)) shapeCasts_S128_S1x128 := by
  dsimp only [V1, W1, hostOps0]; after_results; rfl

theorem V1_v27 (c : Dev nD) : (V1 m ρ c main_v27 : S1x128.Idx → EReal)
    = shapeCast _ (m ((c : Thread nD τ).loc main_arg9)) shapeCasts_S128_S1x128 := by
  dsimp only [V1, W1, hostOps0]; after_results; rfl

theorem V1_arg0 (c : Dev nD) : (V1 m ρ c main_arg0 : S50000x128.Idx → EReal) = m ((c : Thread nD τ).loc main_arg0) := by
  dsimp only [V1, W1, hostOps0]; after_results

theorem V1_arg2 (c : Dev nD) : (V1 m ρ c main_arg2 : S128x128.Idx → EReal) = m ((c : Thread nD τ).loc main_arg2) := by
  dsimp only [V1, W1, hostOps0]; after_results

theorem V1_arg4 (c : Dev nD) : (V1 m ρ c main_arg4 : S128x128.Idx → EReal) = m ((c : Thread nD τ).loc main_arg4) := by
  dsimp only [V1, W1, hostOps0]; after_results

theorem V1_arg5 (c : Dev nD) : (V1 m ρ c main_arg5 : S128x128.Idx → EReal) = m ((c : Thread nD τ).loc main_arg5) := by
  dsimp only [V1, W1, hostOps0]; after_results

theorem V1_arg6 (c : Dev nD) : (V1 m ρ c main_arg6 : S128.Idx → EReal) = m ((c : Thread nD τ).loc main_arg6) := by
  dsimp only [V1, W1, hostOps0]; after_results

theorem V1_arg7 (c : Dev nD) : (V1 m ρ c main_arg7 : S128x128.Idx → EReal) = m ((c : Thread nD τ).loc main_arg7) := by
  dsimp only [V1, W1, hostOps0]; after_results

theorem V1_arg10 (c : Dev nD) : (V1 m ρ c main_arg10 : S128.Idx → EReal) = m ((c : Thread nD τ).loc main_arg10) := by
  dsimp only [V1, W1, hostOps0]; after_results

theorem V1_arg11 (c : Dev nD) : (V1 m ρ c main_arg11 : S128.Idx → EReal) = m ((c : Thread nD τ).loc main_arg11) := by
  dsimp only [V1, W1, hostOps0]; after_results

/-! ## Across the first region: a buffer that is none of its arrays keeps its contents -/

theorem W2_v1 (c : Dev nD) : (W2 m ρ c (Proc.devRef .tc main_v1) : S800000.Idx → BitVec 32) = src (m ((c : Thread nD τ).loc main_arg1)) :=
  (W2_of_ne m ρ c main_v1 (by decide)).trans (V1_v1 m ρ c)

theorem W2_v3 (c : Dev nD) : (W2 m ρ c (Proc.devRef .tc main_v3) : S800000.Idx → BitVec 32) = dst (m ((c : Thread nD τ).loc main_arg1)) :=
  (W2_of_ne m ρ c main_v3 (by decide)).trans (V1_v3 m ρ c)

theorem W2_v11 (c : Dev nD) : (W2 m ρ c (Proc.devRef .tc main_v11) : S50000.Idx → EReal) = invDeg (m ((c : Thread nD τ).loc main_arg1)) :=
  (W2_of_ne m ρ c main_v11 (by decide)).trans (V1_v11 m ρ c)

theorem W2_arg5 (c : Dev nD) : (W2 m ρ c (Proc.devRef .tc main_arg5) : S128x128.Idx → EReal) = m ((c : Thread nD τ).loc main_arg5) :=
  (W2_of_ne m ρ c main_arg5 (by decide)).trans (V1_arg5 m ρ c)

theorem W2_arg6 (c : Dev nD) : (W2 m ρ c (Proc.devRef .tc main_arg6) : S128.Idx → EReal) = m ((c : Thread nD τ).loc main_arg6) :=
  (W2_of_ne m ρ c main_arg6 (by decide)).trans (V1_arg6 m ρ c)

theorem W2_arg7 (c : Dev nD) : (W2 m ρ c (Proc.devRef .tc main_arg7) : S128x128.Idx → EReal) = m ((c : Thread nD τ).loc main_arg7) :=
  (W2_of_ne m ρ c main_arg7 (by decide)).trans (V1_arg7 m ρ c)

theorem W2_arg10 (c : Dev nD) : (W2 m ρ c (Proc.devRef .tc main_arg10) : S128.Idx → EReal) = m ((c : Thread nD τ).loc main_arg10) :=
  (W2_of_ne m ρ c main_arg10 (by decide)).trans (V1_arg10 m ρ c)

theorem W2_arg11 (c : Dev nD) : (W2 m ρ c (Proc.devRef .tc main_arg11) : S128.Idx → EReal) = m ((c : Thread nD τ).loc main_arg11) :=
  (W2_of_ne m ρ c main_arg11 (by decide)).trans (V1_arg11 m ρ c)

/-! ## The second stretch -/

theorem V3_v41 (c : Dev nD) : (V3 m ρ c main_v41 : S50000x128.Idx → EReal)
    = aggK (W2 m ρ c (Proc.devRef .tc main_v28)) (W2 m ρ c (Proc.devRef .tc main_v1)) (W2 m ρ c (Proc.devRef .tc main_v3))
        (W2 m ρ c (Proc.devRef .tc main_v11)) := by
  dsimp only [V3, W3, hostOps1]; after_results_simp <;> rfl

theorem V3_v42 (c : Dev nD) : (V3 m ρ c main_v42 : S1x128.Idx → EReal)
    = shapeCast _ (W2 m ρ c (Proc.devRef .tc main_arg6) : S128.Idx → EReal) shapeCasts_S128_S1x128 := by
  dsimp only [V3, W3, hostOps1]; after_results_simp <;> rfl

theorem V3_v43 (c : Dev nD) : (V3 m ρ c main_v43 : S1x128.Idx → EReal)
    = shapeCast _ (W2 m ρ c (Proc.devRef .tc main_arg10) : S128.Idx → EReal) shapeCasts_S128_S1x128 := by
  dsimp only [V3, W3, hostOps1]; after_results_simp <;> rfl

theorem V3_v44 (c : Dev nD) : (V3 m ρ c main_v44 : S1x128.Idx → EReal)
    = shapeCast _ (W2 m ρ c (Proc.devRef .tc main_arg11) : S128.Idx → EReal) shapeCasts_S128_S1x128 := by
  dsimp only [V3, W3, hostOps1]; after_results_simp <;> rfl

theorem V3_v28 (c : Dev nD) : (V3 m ρ c main_v28 : S50000x128.Idx → EReal) = W2 m ρ c (Proc.devRef .tc main_v28) := by
  dsimp only [V3, W3, hostOps1]; after_results

theorem V3_arg5 (c : Dev nD) : (V3 m ρ c main_arg5 : S128x128.Idx → EReal) = W2 m ρ c (Proc.devRef .tc main_arg5) := by
  dsimp only [V3, W3, hostOps1]; after_results

theorem V3_arg7 (c : Dev nD) : (V3 m ρ c main_arg7 : S128x128.Idx → EReal) = W2 m ρ c (Proc.devRef .tc main_arg7) := by
  dsimp only [V3, W3, hostOps1]; after_results

end Cert.KernelIdeal.HostSide

end
-- ==== Proof.KRun.lean ====
/-
  The idealized kernel's run with its result named.

  The program is two stretches of host operations, each followed by a region. Every weakly fair execution terminates,
  nothing faulting, with every buffer the host can see at the contents the last boundary's fold gives it: the
  arguments as launched, and the result array at what the second region's write-backs leave in it.
-/
import proofs.«144361_j6399501271360_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result array at the last boundary's contents and
    the arguments as launched: the thread state after the last segment holds every buffer the host can see, read
    against the final state. -/
theorem run_out : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Run

end
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«144361_j6399501271360_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.KValue.lean ====
/-
  The idealized kernel's result array as a function of the arguments.

  The first region leaves the first layer (rectified) of the mean of the neighbours' rows of the node features and the
  node features; the host operations between the regions take the mean of the neighbours' rows of that output; the
  second region leaves the second layer (not rectified) of that mean and the first layer's output. The mean is spelt
  as the neighbours' sum times the reciprocal of max(count, 1), which is the quotient by max(count, 1) on all extended
  reals (SageRow.lean). The bias, scale and shift rows are the argument vectors recast, read entry by entry.
-/
import proofs.«144361_j6399501271360_1_alg».proof.Proof.KRegion
import proofs.«144361_j6399501271360_1_alg».proof.Proof.KHost
import proofs.«144361_j6399501271360_1_alg».proof.Proof.KRun
import proofs.«144361_j6399501271360_1_alg».proof.Proof.LibHostRow
import Idealize.ShloMosaic.Lib.IdealHost
import Idealize.ShloMosaic.Lib.ValueLayout

set_option maxRecDepth 16384

noncomputable section

namespace Cert.KernelIdeal.Net

open Cert.KernelIdeal Cert.KernelIdeal.Gen Cert.KernelIdeal.HostSide Cert.KernelIdeal.Region
open Idealize.ShloMosaic Idealize.ShloMosaic.ValueIdx Idealize.ShloMosaic.TcCoe Idealize.SL.Sem Cert.Sage

/-- Each node's count of incoming edges, taken as at least one. -/
def maxDeg (ei : IVec S2x800000 32) : FVec Ideal S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 (dst ei))
      (broadcastInDim S800000 ![] bcast_S_S800000 (constant S_ .f32 0x3F800000#32)))
    (broadcastInDim S50000 ![] bcast_S_S50000 (constant S_ .f32 0x3F800000#32))

/-- The mean of the neighbours' rows as a quotient: the sum divided by the lifted count. -/
def aggD (z : FVec Ideal S50000x128 .f32) (ei : IVec S2x800000 32) : FVec Ideal S50000x128 .f32 :=
  Host.divf (neighbourSum z (src ei) (dst ei))
    (broadcastInDim S50000x128 ![0, 1] bcast_S50000x1_S50000x128_0_1
      (broadcastInDim S50000x1 ![0] bcast_S50000_S50000x1_0 (maxDeg ei)))

/-- The sum times the lifted reciprocal of max(count, 1) is the sum divided by the lifted max(count, 1), entry by entry. -/
theorem aggK_eq (z : FVec Ideal S50000x128 .f32) (ei : IVec S2x800000 32) :
    aggK z (src ei) (dst ei) (invDeg ei) = aggD z ei := by
  funext i
  obtain ⟨p, q, rfl⟩ : ∃ (p : Fin 50000) (q : Fin 128), i = ix2 p q := ⟨i 0, i 1, eq_ix2 i⟩
  have hb (v : FVec Ideal S50000 .f32) :
      broadcastInDim S50000x128 ![0, 1] bcast_S50000x1_S50000x128_0_1 (broadcastInDim S50000x1 ![0] bcast_S50000_S50000x1_0 v) (ix2 p q)
        = v (ix1 p) := HostRow.bcast_a_ab_apply v _ _ p q
  have h1 : broadcastInDim S50000 ![] bcast_S_S50000 (constant (F := Ideal) S_ .f32 0x3F800000#32) (ix1 p)
      = Ideal.ofBits .f32 0x3F800000#32 := broadcastInDim_scalar_apply _ _ _
  unfold aggK aggD
  rw [mulf_apply, hostDivf_apply, hb, hb]
  unfold invDeg maxDeg
  rw [hostDivf_apply, maximumf_apply, h1]
  exact mul_recip_max _ _

variable (m : (ℓ : Loc nD τ sig) → Buf (Elt Ideal) ℓ) (ρ : Dev nD → PrngReg)

/-- The first layer's output, in the kernel's program. -/
def h1 (c : Dev nD) : FVec Ideal S50000x128 .f32 :=
  layer true (A := 50000) (aggD (m ((c : Thread nD τ).loc main_arg0)) (m ((c : Thread nD τ).loc main_arg1))) (m ((c : Thread nD τ).loc main_arg0)) (m ((c : Thread nD τ).loc main_arg2)) (m ((c : Thread nD τ).loc main_arg4))
    (fun k => (m ((c : Thread nD τ).loc main_arg3)) (ix1 k)) (fun k => (m ((c : Thread nD τ).loc main_arg8)) (ix1 k)) (fun k => (m ((c : Thread nD τ).loc main_arg9)) (ix1 k))

/-- A vector recast to a row, read along the row. -/
theorem row_apply (b : FVec Ideal S128 .f32) :
    (fun k : Fin 128 => (shapeCast S1x128 b shapeCasts_S128_S1x128 : S1x128.Idx → EReal) (ix2 (0 : Fin 1) k)) = fun k => b (ix1 k) :=
  funext fun k => shapeCast_a_1a_apply b _ 0 k

/-- What the first region leaves in its output array. -/
theorem first_region (c : Dev nD) : (W2 m ρ c (Proc.devRef .tc main_v28) : S50000x128.Idx → EReal) = h1 m c := by
  refine ((W2_arr m ρ c 7 : W2 m ρ c (Proc.devRef .tc main_v28) = _).trans (final0 (V1 m ρ) c)).trans ?_
  unfold L0 h1
  rw [V1_v24, V1_arg0, V1_arg2, V1_arg4, V1_v25, V1_v26, V1_v27, aggK_eq, row_apply, row_apply, row_apply]

/-- The result array after the run. -/
theorem result (c : Dev nD) : (W4 m ρ c (Proc.devRef .tc main_v45) : S50000x128.Idx → EReal)
    = layer false (A := 50000) (aggD (h1 m c) (m ((c : Thread nD τ).loc main_arg1))) (h1 m c) (m ((c : Thread nD τ).loc main_arg5)) (m ((c : Thread nD τ).loc main_arg7))
        (fun k => (m ((c : Thread nD τ).loc main_arg6)) (ix1 k)) (fun k => (m ((c : Thread nD τ).loc main_arg10)) (ix1 k)) (fun k => (m ((c : Thread nD τ).loc main_arg11)) (ix1 k)) := by
  refine ((W4_arr m ρ c 7 : W4 m ρ c (Proc.devRef .tc main_v45) = _).trans (final1 (V3 m ρ) c)).trans ?_
  unfold L1
  rw [V3_v41, V3_v28, V3_arg5, V3_arg7, V3_v42, V3_v43, V3_v44, W2_v1, W2_v3, W2_v11, W2_arg5, W2_arg6, W2_arg7, W2_arg10,
    W2_arg11, first_region, aggK_eq, row_apply, row_apply, row_apply]

end Cert.KernelIdeal.Net

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«144361_j6399501271360_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.RefLayer.lean ====
/-
  The reference's spelling of one layer, as a function of the aggregated and the own features, read entry by entry.

  The host computes the layer on all 50000 nodes at once: two contractions by the transposed weight matrices, the bias
  lifted to a row and repeated down the nodes, each mean as a sum along the row from the initial value 0, lifted to a
  column, divided by 128 and repeated along the row, the reciprocal square root of the guarded variance, scale and
  shift lifted like the bias. Entry (p, q) is node p's row of the layer (SageRow.lean) at feature q; the bias enters
  the sum before the second contraction, which is the same sum of three terms.
-/
import proofs.«144361_j6399501271360_1_alg».proof.Proof.Gen.ReferenceIdeal
import proofs.«144361_j6399501271360_1_alg».proof.Proof.SageRow
import proofs.«144361_j6399501271360_1_alg».proof.Proof.LibPlainDot
import proofs.«144361_j6399501271360_1_alg».proof.Proof.LibAffine
import proofs.«144361_j6399501271360_1_alg».proof.Proof.LibHostRow
import proofs.«144361_j6399501271360_1_alg».proof.Proof.LibRowReduce
import Idealize.ShloMosaic.Lib.IdealHost
import Idealize.ShloMosaic.Lib.Pipeline.Value

noncomputable section

open scoped BigOperators

namespace Cert.ReferenceIdeal.Layer

open Cert.ReferenceIdeal Cert.ReferenceIdeal.Gen Idealize.ShloMosaic Idealize.ShloMosaic.ValueIdx Cert.Sage

/-- The printed contraction is the plain one: rows of the left operand against columns of the right. -/
theorem dot_plain : dot_S50000x128_S128x128_S50000x128_1_0_0_1_n_n = DotDims.plain 50000 128 128 := rfl

/-- The host's reciprocal square root at an index. -/
theorem hostRsqrt_apply {s : Shape} {φ : FTy} (a : FVec Ideal s φ) (i : s.Idx) : Host.rsqrt a i = Ideal.rsqrt (a i) := rfl

/-- The host's dense part: both contractions and the bias, on all nodes. -/
def hostDense (a x : FVec Ideal S50000x128 .f32) (Wl : FVec Ideal S128x128 .f32) (bl : FVec Ideal S128 .f32)
    (Wr : FVec Ideal S128x128 .f32) : FVec Ideal S50000x128 .f32 :=
  addf (addf (Host.dotGeneral dot_S50000x128_S128x128_S50000x128_1_0_0_1_n_n none a (transpose S128x128 [1, 0] Wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none x (transpose S128x128 [1, 0] Wr transposes_S128x128_S128x128_1_0))

/-- The host's mean along each row, kept as a column. -/
def hostMean (h : FVec Ideal S50000x128 .f32) : FVec Ideal S50000x1 .f32 :=
  Host.divf (broadcastInDim S50000x1 ![0] bcast_S50000_S50000x1_0
      (Host.reduceAdd h (constant S_ .f32 0x00000000#32) reducesTo_S50000x128_S50000_d1 h_S_))
    (broadcastInDim S50000x1 ![] bcast_S_S50000x1 (constant S_ .f32 0x43000000#32))

/-- The host's layer normalisation of the dense part, scaled and shifted. -/
def hostNorm (h : FVec Ideal S50000x128 .f32) (g be : FVec Ideal S128 .f32) : FVec Ideal S50000x128 .f32 :=
  addf (mulf (mulf (subf h (broadcastInDim S50000x128 ![0, 1] bcast_S50000x1_S50000x128_0_1 (hostMean h)))
        (broadcastInDim S50000x128 ![0, 1] bcast_S50000x1_S50000x128_0_1
          (Host.rsqrt (addf (hostMean (mulf (subf h (broadcastInDim S50000x128 ![0, 1] bcast_S50000x1_S50000x128_0_1 (hostMean h)))
                (subf h (broadcastInDim S50000x128 ![0, 1] bcast_S50000x1_S50000x128_0_1 (hostMean h)))))
            (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- The row sum's side condition in the form the library's row-sum law takes. -/
theorem hred : S50000x128.Reduces [1] S50000 := by
  obtain ⟨h, hb⟩ := reducesTo_S50000x128_S50000_d1
  exact ⟨h, Nat.one_pos, hb⟩

/-- A rank-0 constant broadcast to the column [50000, 1] reads the constant's word. -/
theorem scalar_col_apply (dims : Fin S_.rank → Fin S50000x1.rank) (h : S_.BroadcastsInDim S50000x1 dims) (w : BitVec 32)
    (i : S50000x1.Idx) : broadcastInDim S50000x1 dims h (constant (F := Ideal) S_ .f32 w) i = Ideal.ofBits .f32 w := by
  obtain rfl : dims = ![] := funext fun a => a.elim0
  exact broadcastInDim_scalar_apply _ _ _

/-- The broadcast zero reads the zero word everywhere. -/
theorem zero_apply (dims : Fin S_.rank → Fin S50000x128.rank) (h : S_.BroadcastsInDim S50000x128 dims) (i : S50000x128.Idx) :
    broadcastInDim S50000x128 dims h (constant (F := Ideal) S_ .f32 0x00000000#32) i = wZero := by
  obtain rfl : dims = ![] := funext fun a => a.elim0
  exact broadcastInDim_scalar_apply _ _ _

/-- A vector over the nodes lifted to a column reads the node's entry (the axis map as a variable with its value beside it,
    so that the law applies wherever the printed map stands). -/
theorem col_apply (dims : Fin S50000.rank → Fin S50000x1.rank) (hd : dims = ![0]) (h : S50000.BroadcastsInDim S50000x1 dims)
    (v : FVec Ideal S50000 .f32) (p : Fin 50000) (u : Fin 1) :
    broadcastInDim S50000x1 dims h v (ix2 p u) = v (ix1 p) := by
  subst hd
  exact HostRow.bcast_a_a1_apply v h p u

/-- A column over the nodes repeated along the features reads the node's entry. -/
theorem colrep_apply (dims : Fin S50000x1.rank → Fin S50000x128.rank) (hd : dims = ![0, 1])
    (h : S50000x1.BroadcastsInDim S50000x128 dims) (w : FVec Ideal S50000x1 .f32) (p : Fin 50000) (q : Fin 128) :
    broadcastInDim S50000x128 dims h w (ix2 p q) = w (ix2 p (0 : Fin 1)) := by
  subst hd
  exact HostRow.bcast_a1_ab_apply w h p q

/-- The host's sum along node p's row from an initial value. -/
theorem rowsum_apply (h : FVec Ideal S50000x128 .f32) (init : FVec Ideal S_ .f32) (p : Fin 50000) :
    Host.reduceAdd h init reducesTo_S50000x128_S50000_d1 h_S_ (ix1 p) = init (Shape.Idx.first h_S_) + ∑ k : Fin 128, h (ix2 p k) :=
  HostRow.hostReduceAdd_cols h init _ hred h_S_ p

/-- A vector over the features lifted to a row and repeated down the nodes reads the feature's entry. -/
theorem bias_apply (d1 : Fin S128.rank → Fin S1x128.rank) (hd1 : d1 = ![1]) (h1 : S128.BroadcastsInDim S1x128 d1)
    (d2 : Fin S1x128.rank → Fin S50000x128.rank) (hd2 : d2 = ![0, 1]) (h2 : S1x128.BroadcastsInDim S50000x128 d2)
    (b : FVec Ideal S128 .f32) (p : Fin 50000) (q : Fin 128) :
    broadcastInDim S50000x128 d2 h2 (broadcastInDim S1x128 d1 h1 b) (ix2 p q) = b (ix1 q) := by
  subst hd1; subst hd2
  exact Affine.bias_rows_apply b h1 h2 p q

/-- The host's contraction by the transposed weights: row p of the left operand against row q of the weights. -/
theorem dot_apply (perm : List (Fin S128x128.rank)) (hp : perm = [1, 0]) (tr : S128x128.Transposes perm S128x128)
    (l : FVec Ideal S50000x128 .f32) (W : FVec Ideal S128x128 .f32) (p : Fin 50000) (q : Fin 128) :
    Host.dotGeneral dot_S50000x128_S128x128_S50000x128_1_0_0_1_n_n none l (transpose S128x128 perm W tr) (ix2 p q)
      = ∑ k : Fin 128, l (ix2 p k) * W (ix2 q k) := by
  subst hp
  simp only [Host.dotGeneral]
  rw [dot_plain]
  exact (PlainDot.dotGeneral_apply_ix2 none _ l _ p q).trans
    (Finset.sum_congr rfl fun k _ => congrArg (l (ix2 p k) * ·) (RowReduce.transpose_10_apply W tr k q))

theorem hostDense_apply (a x : FVec Ideal S50000x128 .f32) (Wl : FVec Ideal S128x128 .f32) (bl : FVec Ideal S128 .f32)
    (Wr : FVec Ideal S128x128 .f32) (p : Fin 50000) (q : Fin 128) :
    hostDense a x Wl bl Wr (ix2 p q)
      = dense (fun k => a (ix2 p k)) (fun k => x (ix2 p k)) Wl Wr (fun k => bl (ix1 k)) q := by
  unfold hostDense
  simp only [addf_apply, dot_apply, bias_apply]
  exact dense_bias_second (fun k => a (ix2 p k)) (fun k => x (ix2 p k)) Wl Wr (fun k => bl (ix1 k)) q

theorem hostMean_apply (h : FVec Ideal S50000x128 .f32) (p : Fin 50000) (u : Fin 1) :
    hostMean h (ix2 p u) = mean (fun c => h (ix2 p c)) := by
  unfold hostMean mean
  simp only [hostDivf_apply, col_apply, rowsum_apply, scalar_col_apply, constant_apply, Ideal.ofBits_zero_f32, zero_add]

theorem hostNorm_apply (h : FVec Ideal S50000x128 .f32) (g be : FVec Ideal S128 .f32) (p : Fin 50000) (q : Fin 128) :
    hostNorm h g be (ix2 p q) = normRow (fun c => h (ix2 p c)) (fun k => g (ix1 k)) (fun k => be (ix1 k)) q := by
  unfold hostNorm normRow
  simp only [addf_apply, mulf_apply, subf_apply, hostRsqrt_apply, colrep_apply, hostMean_apply, bias_apply, scalar_col_apply]

/-- The host's layer, rectified: the maximum with the broadcast zero, then the own features. -/
def hostLayerRelu (a x : FVec Ideal S50000x128 .f32) (Wl : FVec Ideal S128x128 .f32) (bl : FVec Ideal S128 .f32)
    (Wr : FVec Ideal S128x128 .f32) (g be : FVec Ideal S128 .f32) : FVec Ideal S50000x128 .f32 :=
  addf (maximumf (hostNorm (hostDense a x Wl bl Wr) g be)
      (broadcastInDim S50000x128 ![] bcast_S_S50000x128 (constant S_ .f32 0x00000000#32))) x

/-- The host's layer, not rectified. -/
def hostLayerPlain (a x : FVec Ideal S50000x128 .f32) (Wl : FVec Ideal S128x128 .f32) (bl : FVec Ideal S128 .f32)
    (Wr : FVec Ideal S128x128 .f32) (g be : FVec Ideal S128 .f32) : FVec Ideal S50000x128 .f32 :=
  addf (hostNorm (hostDense a x Wl bl Wr) g be) x

theorem hostLayerRelu_eq (a x : FVec Ideal S50000x128 .f32) (Wl : FVec Ideal S128x128 .f32) (bl : FVec Ideal S128 .f32)
    (Wr : FVec Ideal S128x128 .f32) (g be : FVec Ideal S128 .f32) :
    hostLayerRelu a x Wl bl Wr g be
      = layer true (A := 50000) a x Wl Wr (fun k => bl (ix1 k)) (fun k => g (ix1 k)) (fun k => be (ix1 k)) := by
  funext i
  obtain ⟨p, q, rfl⟩ : ∃ (p : Fin 50000) (q : Fin 128), i = ix2 p q := ⟨i 0, i 1, eq_ix2 i⟩
  rw [layer_ix2]
  unfold hostLayerRelu layerRow
  simp only [addf_apply, maximumf_apply, hostNorm_apply, hostDense_apply, zero_apply, cond_true]

theorem hostLayerPlain_eq (a x : FVec Ideal S50000x128 .f32) (Wl : FVec Ideal S128x128 .f32) (bl : FVec Ideal S128 .f32)
    (Wr : FVec Ideal S128x128 .f32) (g be : FVec Ideal S128 .f32) :
    hostLayerPlain a x Wl bl Wr g be
      = layer false (A := 50000) a x Wl Wr (fun k => bl (ix1 k)) (fun k => g (ix1 k)) (fun k => be (ix1 k)) := by
  funext i
  obtain ⟨p, q, rfl⟩ : ∃ (p : Fin 50000) (q : Fin 128), i = ix2 p q := ⟨i 0, i 1, eq_ix2 i⟩
  rw [layer_ix2]
  unfold hostLayerPlain layerRow
  simp only [addf_apply, hostNorm_apply, hostDense_apply, cond_false]

end Cert.ReferenceIdeal.Layer

end
-- ==== Proof.RefValue.lean ====
/-
  The reference's result as two layers over the mean of the neighbours' rows.

  The reference gathers the source rows of the node features, sums them into their targets, divides each node's sum by
  max(count of incoming edges, 1) — `aggR` —, applies the first layer (rectified) to that and the node features, does
  the same again with the first layer's output, and applies the second layer (not rectified). Its operations, taken
  one after the other, are exactly these functions applied to one another.
-/
import proofs.«144361_j6399501271360_1_alg».proof.Proof.Gen.ReferenceIdeal.Read
import proofs.«144361_j6399501271360_1_alg».proof.Proof.RefLayer

set_option maxRecDepth 16384

noncomputable section

namespace Cert.ReferenceIdeal.Net

open Cert.ReferenceIdeal Cert.ReferenceIdeal.Gen Cert.ReferenceIdeal.Read Cert.ReferenceIdeal.Layer
open Idealize.ShloMosaic Idealize.ShloMosaic.ValueIdx Cert.Sage

/-- The edges' sources. -/
def src (ei : IVec S2x800000 32) : IVec S800000 32 :=
  shapeCast _ (extractStridedSlice S1x800000 ![0, 0] ei slices_S2x800000_S1x800000_0_0) shapeCasts_S1x800000_S800000

/-- The edges' targets. -/
def dst (ei : IVec S2x800000 32) : IVec S800000 32 :=
  shapeCast _ (extractStridedSlice S1x800000 ![1, 0] ei slices_S2x800000_S1x800000_1_0) shapeCasts_S1x800000_S800000

/-- Each node's count of incoming edges, taken as at least one. -/
def maxDeg (ei : IVec S2x800000 32) : FVec Ideal S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 (dst ei))
      (broadcastInDim S800000 ![] bcast_S_S800000 (constant S_ .f32 0x3F800000#32)))
    (broadcastInDim S50000 ![] bcast_S_S50000 (constant S_ .f32 0x3F800000#32))

/-- Each node's sum of its sources' rows of `z` (negative sources counted from the end, as the gather is printed). -/
def neighbourSum (z : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 z
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The mean of the neighbours' rows, as the reference spells it: the sum divided by the lifted count. -/
def aggR (z : FVec Ideal S50000x128 .f32) (ei : IVec S2x800000 32) : FVec Ideal S50000x128 .f32 :=
  Host.divf (neighbourSum z (src ei) (dst ei))
    (broadcastInDim S50000x128 ![0, 1] bcast_S50000x1_S50000x128_0_1
      (broadcastInDim S50000x1 ![0] bcast_S50000_S50000x1_0 (maxDeg ei)))

variable (x0 : FVec Ideal S50000x128 .f32) (x1 : IVec S2x800000 32) (x2 : FVec Ideal S128x128 .f32) (x3 : FVec Ideal S128 .f32)
  (x4 x5 : FVec Ideal S128x128 .f32) (x6 : FVec Ideal S128 .f32) (x7 : FVec Ideal S128x128 .f32) (x8 x9 x10 x11 : FVec Ideal S128 .f32)

theorem v22_eq : val_main_v22 (F := Ideal) x0 x1 = aggR x0 x1 := rfl

theorem v56_eq : val_main_v56 (F := Ideal) x0 x1 x2 x3 x4 x8 x9
    = hostLayerRelu (val_main_v22 (F := Ideal) x0 x1) x0 x2 x3 x4 x8 x9 := rfl

theorem v79_eq : val_main_v79 (F := Ideal) x0 x1 x2 x3 x4 x8 x9
    = aggR (val_main_v56 (F := Ideal) x0 x1 x2 x3 x4 x8 x9) x1 := rfl

theorem v112_eq : val_main_v112 (F := Ideal) x0 x1 x2 x3 x4 x5 x6 x7 x8 x9 x10 x11
    = hostLayerPlain (val_main_v79 (F := Ideal) x0 x1 x2 x3 x4 x8 x9) (val_main_v56 (F := Ideal) x0 x1 x2 x3 x4 x8 x9)
        x5 x6 x7 x10 x11 := rfl

/-- The first layer's output, in the reference. -/
def h1 : FVec Ideal S50000x128 .f32 :=
  layer true (A := 50000) (aggR x0 x1) x0 x2 x4 (fun k => x3 (ix1 k)) (fun k => x8 (ix1 k)) (fun k => x9 (ix1 k))

/-- The reference's result: the second layer of the mean of the first layer's output and that output. -/
theorem result_eq : val_main_v112 (F := Ideal) x0 x1 x2 x3 x4 x5 x6 x7 x8 x9 x10 x11
    = layer false (A := 50000) (aggR (h1 x0 x1 x2 x3 x4 x8 x9) x1) (h1 x0 x1 x2 x3 x4 x8 x9) x5 x7
        (fun k => x6 (ix1 k)) (fun k => x10 (ix1 k)) (fun k => x11 (ix1 k)) := by
  have e56 : val_main_v56 (F := Ideal) x0 x1 x2 x3 x4 x8 x9 = h1 x0 x1 x2 x3 x4 x8 x9 := by
    rw [v56_eq, v22_eq, hostLayerRelu_eq]; rfl
  rw [v112_eq, hostLayerPlain_eq, v79_eq, e56]

end Cert.ReferenceIdeal.Net

end
-- ==== Proof.lean ====
/-
  A two-layer mean-aggregation graph network with layer normalisation (50000 nodes of 128 features, 800000 edges): the
  kernel program against its reference, over the extended reals.

  Both programs gather each edge's source row, sum the rows into the edge's target and take the mean over max(count, 1);
  both then apply, twice, the layer  x ↦ LN(mean·Wlᵀ + b + x·Wrᵀ)·g + β  (rectified the first time) and add the layer's
  own input. The kernel program computes each layer in a region of ten blocks of 5000 nodes, the reference on all nodes
  at once; a node's row of a layer reads only that node's rows of the inputs, so the ten blocks are the blocks of the one
  whole-array layer (KRegion.lean), and entry by entry the two spellings of the layer are one function of the rows
  (KBody.lean, RefLayer.lean over SageRow.lean). The kernel program multiplies the neighbours' sum by the reciprocal of
  max(count, 1) where the reference divides by max(count, 1): the same extended real, since the divisor is never zero.
  No finiteness of the inputs is used: the sums are regrouped nowhere, only the order of a sum of three terms differs.
  The idealization rewrote no operation, so it is preserved trivially; the frames are the generated ones.
-/
import proofs.«144361_j6399501271360_1_alg».proof.Defs
import proofs.«144361_j6399501271360_1_alg».proof.Proof.Gen.Kernel
import proofs.«144361_j6399501271360_1_alg».proof.Proof.Gen.Kernel.Skeleton
import proofs.«144361_j6399501271360_1_alg».proof.Proof.Gen.Kernel.Launch
import proofs.«144361_j6399501271360_1_alg».proof.Proof.Gen.Kernel.Points
import proofs.«144361_j6399501271360_1_alg».proof.Proof.Gen.Kernel.Frame
import proofs.«144361_j6399501271360_1_alg».proof.Proof.Gen.KernelIdeal
import proofs.«144361_j6399501271360_1_alg».proof.Proof.Gen.KernelIdeal.Skeleton
import proofs.«144361_j6399501271360_1_alg».proof.Proof.Gen.KernelIdeal.Launch
import proofs.«144361_j6399501271360_1_alg».proof.Proof.Gen.KernelIdeal.Points
import proofs.«144361_j6399501271360_1_alg».proof.Proof.Gen.KernelIdeal.Frame
import proofs.«144361_j6399501271360_1_alg».proof.Proof.Gen.ReferenceIdeal
import proofs.«144361_j6399501271360_1_alg».proof.Proof.Gen.ReferenceIdeal.Run
import proofs.«144361_j6399501271360_1_alg».proof.Proof.Gen.ReferenceIdeal.Read
import proofs.«144361_j6399501271360_1_alg».proof.Proof.Gen.Pre_finite_inputs
import proofs.«144361_j6399501271360_1_alg».proof.Proof.KValue
import proofs.«144361_j6399501271360_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mean of the neighbours' rows is one function in the two programs' vocabularies: the same operations on the same
    shapes. -/
theorem agg_same (z : FVec Ideal Cert.KernelIdeal.S50000x128 .f32) (ei : IVec Cert.KernelIdeal.S2x800000 32) :
    Cert.ReferenceIdeal.Net.aggR z ei = Cert.KernelIdeal.Net.aggD z ei := rfl

/-- Both programs end with the second layer of the mean of the first layer's output and that output. -/
theorem algebraic : Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.Run.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v112_eq, a0, a1, a2, a3, a4, a5, a6, a7, a8, a9, a10, a11,
    Cert.ReferenceIdeal.Net.result_eq]
  refine Eq.trans ?_ (Cert.KernelIdeal.Net.result m ρ c).symm
  unfold Cert.ReferenceIdeal.Net.h1 Cert.KernelIdeal.Net.h1
  rw [agg_same, agg_same]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
